-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x1 : Shape := ⟨2, ![4096, 1]⟩
abbrev S256 : Shape := ⟨1, ![256]⟩
abbrev S4096x4096 : Shape := ⟨2, ![4096, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S8x2048x4096 .f32) (main_arg1 : FVec F S4096x1 .f32) (main_arg2 : FVec F S256 .f32) (main_arg3 : IVec S4096x4096 32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S8x2048x4096 : Shape := ⟨3, ![8, 2048, 4096]⟩
abbrev S4096x1 : Shape := ⟨2, ![4096, 1]⟩
abbrev S256 : Shape := ⟨1, ![256]⟩
abbrev S4096x4096 : Shape := ⟨2, ![4096, 4096]⟩
abbrev S_ : Shape := ⟨0, ![]⟩
abbrev S4096x4096x1 : Shape := ⟨3, ![4096, 4096, 1]⟩
abbrev S16384x4096 : Shape := ⟨2, ![16384, 4096]⟩
abbrev S256x4096 : Shape := ⟨2, ![256, 4096]⟩

abbrev nBuf : Space → Nat
  | .hbm => 19
  | .vmem => 5
  | .smem => 0
  | _ => 0

abbrev bufTy : (tb : Table) → Fin (tcTables nBuf tb) → BufTy
  | .hbm, ⟨0, _⟩ => ⟨S8x2048x4096, .f32⟩
  | .hbm, ⟨1, _⟩ => ⟨S4096x1, .f32⟩
  | .hbm, ⟨2, _⟩ => ⟨S256, .f32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .bf16⟩
  | .hbm, ⟨16, _⟩ => ⟨S16384x4096, .f32⟩
  | .hbm, ⟨17, _⟩ => ⟨S16384x4096, .f32⟩
  | .hbm, ⟨18, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S256x4096, .f32⟩
  | .local _ .vmem, ⟨4, _⟩ => ⟨S256x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096x1_S4096x4096_0_1 : S4096x1.BroadcastsInDim S4096x4096 (![0, 1] : Fin 2 → Fin S4096x4096.rank)
  bitsLt_bf16_f32 : FTy.bits .bf16 < FTy.bits .f32
  shapeCasts_S8x2048x4096_S16384x4096 : S8x2048x4096.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S16384x4096_S8x2048x4096 : S16384x4096.ShapeCasts S8x2048x4096
  gather_S256_S4096x4096x1_S4096x4096_n_0_n_n_0_2_1_wf : GatherDims.WF S256 S4096x4096x1 S4096x4096 [] [0] [] [0] [] 2 ![1]
  dot_S256x4096_S4096x4096_S256x4096_1_1_0_0_n_n_wf : DotDims.WF S256x4096 S4096x4096 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

abbrev win0_0 : Pipeline.Window sig grid0 :=
  Pipeline.Window.ofSpec (Memref.whole main_v10) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x1 : Shape := ⟨2, ![4096, 1]⟩
abbrev S256 : Shape := ⟨1, ![256]⟩
abbrev S4096x4096 : Shape := ⟨2, ![4096, 4096]⟩
abbrev S_ : Shape := ⟨0, ![]⟩
abbrev S4096x4096x1 : Shape := ⟨3, ![4096, 4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x1, .f32⟩
  | .hbm, ⟨2, _⟩ => ⟨S256, .f32⟩
  | .hbm, ⟨3, _⟩ => ⟨S4096x4096, .i32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096x1_S4096x4096_0_1 : S4096x1.BroadcastsInDim S4096x4096 (![0, 1] : Fin 2 → Fin S4096x4096.rank)
  gather_S256_S4096x4096x1_S4096x4096_n_0_n_n_0_2_1_wf : GatherDims.WF S256 S4096x4096x1 S4096x4096 [] [0] [] [0] [] 2 ![1]
  dot_S8x2048x4096_S4096x4096_S8x2048x4096_2_1_01_0_n_n_wf : DotDims.WF S8x2048x4096 S4096x4096 S8x2048x4096 [2] [1] [0, 1] [0] [] []

variable [Facts₀]

def gather_S256_S4096x4096x1_S4096x4096_n_0_n_n_0_2_1 : GatherDims S256 S4096x4096x1 S4096x4096 where
  offsetDims := []
  collapsedSliceDims := [0]
  operandBatchingDims := []
  startIndicesBatchingDims := []
  startIndexMap := [0]
  indexVectorDim := 2
  sliceSizes := ![1]
  wf := gather_S256_S4096x4096x1_S4096x4096_n_0_n_n_0_2_1_wf
def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.BlockProduct.lean ====
/-
  The product one grid point computes. The body loads a block of 256 rows of the activations, [256, 4096], and the
  whole weight matrix, [4096, 4096], narrows the activations (the identity on the extended reals), and multiplies the two
  into the zero accumulator, contracting the second axis of BOTH operands: entry (p, q) of what it stores is
  Σ_k x(p, k) · w(q, k), a plain finite sum over the 4096 contraction positions.
-/
import proofs.«101652_j15573551415405_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- The left operand's first coordinate at an output entry is the entry's first coordinate (a kept axis). -/
theorem lhs_row (j : S256x4096.Idx) (r : dot_S256x4096_S4096x4096_S256x4096_1_1_0_0_n_n.contr.Idx) : (dot_S256x4096_S4096x4096_S256x4096_1_1_0_0_n_n.lhsIdx j r 0).val = (j 0).val := by
  unfold DotDims.lhsIdx
  rw [dif_neg (show ¬(0 : Fin S256x4096.rank) ∈ dot_S256x4096_S4096x4096_S256x4096_1_1_0_0_n_n.lhsBatch by decide),
    dif_pos (show (0 : Fin S256x4096.rank) ∈ dot_S256x4096_S4096x4096_S256x4096_1_1_0_0_n_n.lhsNonContracting by decide)]
  rfl

/-- The right operand's first coordinate there is the entry's second coordinate (the weights' kept axis). -/
theorem rhs_row (j : S256x4096.Idx) (r : dot_S256x4096_S4096x4096_S256x4096_1_1_0_0_n_n.contr.Idx) : (dot_S256x4096_S4096x4096_S256x4096_1_1_0_0_n_n.rhsIdx j r 0).val = (j 1).val := by
  unfold DotDims.rhsIdx
  rw [dif_neg (show ¬(0 : Fin S4096x4096.rank) ∈ dot_S256x4096_S4096x4096_S256x4096_1_1_0_0_n_n.rhsBatch by decide),
    dif_pos (show (0 : Fin S4096x4096.rank) ∈ dot_S256x4096_S4096x4096_S256x4096_1_1_0_0_n_n.rhsNonContracting by decide)]
  rfl

/-- The left operand of the contraction at output entry (p, q) and contraction position k is entry (p, k):
    the first axis is kept, the second is the contracted one. -/
theorem lhs_at (p : Fin 256) (q : Fin 4096) (k : Fin 4096) :
    dot_S256x4096_S4096x4096_S256x4096_1_1_0_0_n_n.lhsIdx (ix2 p q) ((contrEquiv1 dot_S256x4096_S4096x4096_S256x4096_1_1_0_0_n_n 4096 rfl rfl).symm k) = ix2 p k := by
  have hk := contrEquiv1_symm_val dot_S256x4096_S4096x4096_S256x4096_1_1_0_0_n_n 4096 rfl rfl k
  exact funext fun a => Fin.ext (by
    match a with
    | ⟨0, _⟩ => exact lhs_row _ _
    | ⟨1, _⟩ => exact (dot_S256x4096_S4096x4096_S256x4096_1_1_0_0_n_n.lhsIdx_val_of_single rfl _ _).trans hk)

/-- The right operand there is entry (q, k): its first axis is the output's second, its second is the contracted one. -/
theorem rhs_at (p : Fin 256) (q : Fin 4096) (k : Fin 4096) :
    dot_S256x4096_S4096x4096_S256x4096_1_1_0_0_n_n.rhsIdx (ix2 p q) ((contrEquiv1 dot_S256x4096_S4096x4096_S256x4096_1_1_0_0_n_n 4096 rfl rfl).symm k) = ix2 q k := by
  have hk := contrEquiv1_symm_val dot_S256x4096_S4096x4096_S256x4096_1_1_0_0_n_n 4096 rfl rfl k
  exact funext fun a => Fin.ext (by
    match a with
    | ⟨0, _⟩ => exact rhs_row _ _
    | ⟨1, _⟩ => exact (dot_S256x4096_S4096x4096_S256x4096_1_1_0_0_n_n.rhsIdx_val_of_single rfl _ _).trans hk)

/-- What the body stores, entry by entry: (p, q) ↦ Σ_k x(p, k) · w(q, k). -/
theorem blockProduct_apply (x : Vec Ideal S256x4096 .f32) (w : Vec Ideal S4096x4096 .bf16) (p : Fin 256) (q : Fin 4096) :
    k0_pay1 (F := Ideal) x w (ix2 p q) = ∑ k : Fin 4096, x (ix2 p k) * w (ix2 q k) := by
  unfold k0_pay1
  rw [shapeCast_self, shapeCast_self]
  refine (Ideal.matmul_constant_zero_apply dot_S256x4096_S4096x4096_S256x4096_1_1_0_0_n_n none
    (truncf .bf16 x bitsLt_bf16_f32) w (ix2 p q)).trans ?_
  rw [← Equiv.sum_comp (contrEquiv1 dot_S256x4096_S4096x4096_S256x4096_1_1_0_0_n_n 4096 rfl rfl).symm]
  refine Finset.sum_congr rfl fun k _ => ?_
  rw [lhs_at, rhs_at]
  rfl

end Cert.KernelIdeal.Hand

end
-- ==== Proof.RowsTimesWeights.lean ====
/-
  From the blocks to the whole product. The activations, flattened to [16384, 4096], are cut into 64 blocks of 256
  rows; grid point t reads block t of them and the whole [4096, 4096] weight matrix, and writes back block t of the
  [16384, 4096] result. Since the block product is Σ_k x(p, k) · w(q, k) and row p of block t is row 256 t + p of the
  array, every point writes a block of ONE function of the two arrays, (r, o) ↦ Σ_k a(r, k) · w(o, k); the 64 blocks
  tile the rows, so after the last point the result array is that function.
-/
import proofs.«101652_j15573551415405_2_alg».proof.Proof.Gen.KernelIdeal.Frame
import proofs.«101652_j15573551415405_2_alg».proof.Proof.BlockProduct

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx

variable (m : (ℓ : Loc nD τ sig) → Buf (Elt Ideal) ℓ) (ρ : Dev nD → PrngReg)

/-- Every row of the activations against every row of the weights: (r, o) ↦ Σ_k a(r, k) · w(o, k). -/
def rowsTimesWeights (a : S16384x4096.Idx → EReal) (w : S4096x4096.Idx → EReal) : S16384x4096.Idx → EReal :=
  fun j => ∑ k : Fin 4096, a (ix2 (j 0) k) * w (ix2 (j 1) k)

theorem zero_offsets : (![0, 0] : Fin 2 → Nat) = fun _ => 0 := funext fun a => by fin_cases a <;> rfl

/-- The block index maps over the 64 grid points: the activations' and the result's blocks are block t of the rows
    and the whole of the columns, the weights' block is the whole matrix. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the activations' block at point t is entry (256 t + p, k) of the array. -/
theorem rows_block (c : Dev nD) (t : Fin cfg0.N) (p : Fin 256) (k : Fin 4096) (r : Fin 16384) (hr : r.val = t.val * 256 + p.val) :
    (iblk m c 0 t : Vec Ideal S256x4096 .f32) (ix2 p k) = (V m c main_v10 : S16384x4096.Idx → EReal) (ix2 r k) := by
  obtain ⟨e0, e1, -, -, -, -⟩ := block_indices t
  show V m c main_v10 (((cfg0.win 0).blk t).view.emb (ix2 p k)) = V m c main_v10 (ix2 r k)
  refine congrArg _ (funext fun a => Fin.ext ?_)
  match a with
  | ⟨0, _⟩ => show win0_0.index t (0 : Fin 2) * 256 + 1 * p.val = r.val; omega
  | ⟨1, _⟩ => show win0_0.index t (1 : Fin 2) * 4096 + 1 * k.val = k.val; omega

/-- The weights' block at any point is the whole matrix. -/
theorem weights_block (c : Dev nD) (t : Fin cfg0.N) (q : Fin 4096) (k : Fin 4096) :
    (iblk m c 1 t : Vec Ideal S4096x4096 .bf16) (ix2 q k) = (V m c main_v9 : S4096x4096.Idx → EReal) (ix2 q k) := by
  obtain ⟨-, -, e2, e3, -, -⟩ := block_indices t
  show V m c main_v9 (((cfg0.win 1).blk t).view.emb (ix2 q k)) = V m c main_v9 (ix2 q k)
  refine congrArg _ (funext fun a => Fin.ext ?_)
  match a with
  | ⟨0, _⟩ => show win0_1.index t (0 : Fin 2) * 4096 + 1 * q.val = q.val; omega
  | ⟨1, _⟩ => show win0_1.index t (1 : Fin 2) * 4096 + 1 * k.val = k.val; omega

/-- What point t writes back is block t of the product of the two arrays as the region finds them. -/
theorem flushed_eq (c : Dev nD) (t : Fin cfg0.N) :
    (dats m 0 c).flushed 2 t
      = ((cfg0.win 2).blk t).view.read (Elt Ideal) (rowsTimesWeights (V m c main_v10) (V m c main_v9)) := by
  show (cfg0.win 2).cut (grid0.coords t) ((dats m 0 c).after 2 t) = _
  rw [after0_2]
  unfold out0_2
  rw [View.canon_unit_zero zero_offsets]
  simp only [View.ld_unit_zero (S := S256x4096) zero_offsets, View.ld_unit_zero (S := S4096x4096) zero_offsets]
  obtain ⟨-, -, -, -, e4, e5⟩ := block_indices t
  funext j
  obtain ⟨p, q, rfl⟩ : ∃ (p : Fin 256) (q : Fin 4096), j = ix2 p q := ⟨j 0, j 1, eq_ix2 j⟩
  show k0_pay1 (F := Ideal) (iblk m c 0 t) (iblk m c 1 t) (ix2 p q)
    = rowsTimesWeights (V m c main_v10) (V m c main_v9) (((cfg0.win 2).blk t).view.emb (ix2 p q))
  refine (blockProduct_apply (iblk m c 0 t) (iblk m c 1 t) p q).trans ?_
  unfold rowsTimesWeights
  refine Finset.sum_congr rfl fun k _ => ?_
  have hN : t.val < 64 := Nat.lt_of_lt_of_eq t.isLt (show cfg0.N = 64 from N_0)
  have hrow : ((((cfg0.win 2).blk t).view.emb (ix2 p q)) 0).val = t.val * 256 + p.val := by
    show win0_2.index t (0 : Fin 2) * 256 + 1 * p.val = _; omega
  have hcol : ((((cfg0.win 2).blk t).view.emb (ix2 p q)) 1).val = q.val := by
    show win0_2.index t (1 : Fin 2) * 4096 + 1 * q.val = _; omega
  rw [rows_block m c t p k ⟨t.val * 256 + p.val, by have := p.isLt; omega⟩ rfl, weights_block m c t q k]
  refine congrArg₂ (· * ·) (congrArg _ ?_) (congrArg _ ?_)
  · exact funext fun a => Fin.ext (by
      match a with
      | ⟨0, _⟩ => exact hrow.symm
      | ⟨1, _⟩ => rfl)
  · exact funext fun a => Fin.ext (by
      match a with
      | ⟨0, _⟩ => exact hcol.symm
      | ⟨1, _⟩ => rfl)

/-- An index of the result array is in point t's block iff each coordinate is in the block's range on its axis. -/
theorem mem_block (t : Fin cfg0.N) (i : S16384x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v11).slice (win0_2.rect t)).set ↔ _
  rw [View.set_slice_whole, Rect.mem_set_unit]
  exact Iff.rfl

/-- Row r of the result lies in the block of point r / 256: the 64 blocks tile the array. -/
theorem blocks_cover (i : S16384x4096.Idx) :
    ∃ t : Fin cfg0.N, (cfg0.win 2).flush t = true ∧ i ∈ ((cfg0.win 2).blk t).view.set := by
  have hi0 : (i 0).val < 16384 := idx2_lt0 i
  have hi1 : (i 1).val < 4096 := idx2_lt1 i
  refine ⟨⟨(i 0).val / 256, by rw [show cfg0.N = 64 from N_0]; omega⟩, flush0_2 _, ?_⟩
  obtain ⟨-, -, -, -, e4, e5⟩ := block_indices ⟨(i 0).val / 256, by rw [show cfg0.N = 64 from N_0]; omega⟩
  rw [mem_block]
  intro a
  match a with
  | ⟨0, _⟩ =>
    show win0_2.index _ (0 : Fin 2) * 256 ≤ (i 0).val ∧ (i 0).val < win0_2.index _ (0 : Fin 2) * 256 + 256
    rw [e4]; show (i 0).val / 256 * 256 ≤ (i 0).val ∧ (i 0).val < (i 0).val / 256 * 256 + 256; omega
  | ⟨1, _⟩ =>
    show win0_2.index _ (1 : Fin 2) * 4096 ≤ (i 1).val ∧ (i 1).val < win0_2.index _ (1 : Fin 2) * 4096 + 4096
    rw [e5]; omega

/-- After the last point the result array is the product of the flattened activations and the weights. -/
theorem product_array (c : Dev nD) :
    (dats m 0 c).arrAt 2 cfg0.N = rowsTimesWeights (V m c main_v10) (V m c main_v9) :=
  (dats m 0 c).arrAt_eq_of_cover 2 (rowsTimesWeights (V m c main_v10) (V m c main_v9))
    (fun t _ => flushed_eq m c t) blocks_cover

end Cert.KernelIdeal.Hand

end
-- ==== Proof.Linear.lean ====
/-
  The function both programs compute: a linear layer without bias. For activations x over [8, 2048, 4096] (batch,
  position, input feature) and a weight matrix w over [4096, 4096] (output feature, input feature),
      out(b, s, o) = Σ_k x(b, s, k) · w(o, k),
  a finite sum of products on the extended reals, one term per input feature.
-/
import Idealize.ShloMosaic.Lib.ValueIdx
import Idealize.ShloMosaic.PureOps.Ideal

noncomputable section

namespace Cert.Linear

open Idealize.ShloMosaic Idealize.ShloMosaic.ValueIdx

/-- out(b, s, o) = Σ_k x(b, s, k) · w(o, k). -/
def linear (x : (⟨3, ![8, 2048, 4096]⟩ : Shape).Idx → EReal) (w : (⟨2, ![4096, 4096]⟩ : Shape).Idx → EReal) :
    (⟨3, ![8, 2048, 4096]⟩ : Shape).Idx → EReal :=
  fun i => ∑ k : Fin 4096, x (ix3 (i 0) (i 1) k) * w (ix2 (i 2) k)

theorem linear_apply (x : (⟨3, ![8, 2048, 4096]⟩ : Shape).Idx → EReal) (w : (⟨2, ![4096, 4096]⟩ : Shape).Idx → EReal)
    (b : Fin 8) (s : Fin 2048) (o : Fin 4096) :
    linear x w (ix3 b s o) = ∑ k : Fin 4096, x (ix3 b s k) * w (ix2 o k) := rfl

end Cert.Linear

end
-- ==== Proof.KernelLinear.lean ====
/-
  The kernel's program is the linear layer. Before the product it builds the weight matrix on the host (the same table
  lookup scaled row by row as the reference, then narrowed: the identity on the extended reals) and flattens the
  activations [8, 2048, 4096] to [16384, 4096] in row-major order, so row 2048 b + s of the flattened array is row
  (b, s); after the product it unflattens the [16384, 4096] result the same way. Entry (b, s, o) of what it returns is
  therefore entry (2048 b + s, o) of the product, Σ_k x(b, s, k) · w(o, k).
-/
import proofs.«101652_j15573551415405_2_alg».proof.Proof.RowsTimesWeights
import proofs.«101652_j15573551415405_2_alg».proof.Proof.Linear
import Idealize.ShloMosaic.Lib.StableHlo.Run

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.Linear

variable (m : (ℓ : Loc nD τ sig) → Buf (Elt Ideal) ℓ) (ρ : Dev nD → PrngReg)

/-- The weight matrix the host lines build from the scale column, the table and the codes: table entries looked up
    at the codes (a negative code counted from the table's end), each row times its scale. -/
def weights {F : FTy → Type} [FloatOps F] (sc : (⟨S4096x1, .f32⟩ : BufTy).Contents (Elt F)) (lut : (⟨S256, .f32⟩ : BufTy).Contents (Elt F))
    (idx : (⟨S4096x4096, .i32⟩ : BufTy).Contents (Elt F)) : (⟨S4096x4096, .f32⟩ : BufTy).Contents (Elt F) :=
  mulf (Host.gather gather_S256_S4096x4096x1_S4096x4096_n_0_n_n_0_2_1 lut
      (broadcastInDim S4096x4096x1 ![0, 1] bcast_S4096x4096_S4096x4096x1_0_1
        (select (cmpi .slt idx (broadcastInDim S4096x4096 ![] bcast_S_S4096x4096 (constantI S_ 32 0#32)))
          (addi idx (broadcastInDim S4096x4096 ![] bcast_S_S4096x4096 (constantI S_ 32 256#32))) idx)))
    (broadcastInDim S4096x4096 ![0, 1] bcast_S4096x1_S4096x4096_0_1 sc)

/-- The region finds the flattened activations in its first operand. -/
theorem flattened_eq (c : Dev nD) :
    (V m c main_v10 : S16384x4096.Idx → EReal)
      = shapeCast S16384x4096 (m ((c : Thread nD τ).loc main_arg0)) shapeCasts_S8x2048x4096_S16384x4096 := by
  show StableHlo.after hostOps0 (fun b => m (c, b)) (Proc.devRef .tc main_v10) = _
  after_results
  rfl

/-- The region finds the weight matrix in its second operand. -/
theorem weights_eq (c : Dev nD) :
    (V m c main_v9 : S4096x4096.Idx → EReal)
      = weights (F := Ideal) (m ((c : Thread nD τ).loc main_arg1)) (m ((c : Thread nD τ).loc main_arg2)) (m ((c : Thread nD τ).loc main_arg3)) := by
  show StableHlo.after hostOps0 (fun b => m (c, b)) (Proc.devRef .tc main_v9) = _
  after_results
  rfl

/-- The product of the flattened activations with a weight matrix, unflattened, is the linear layer. -/
theorem unflatten_product (x : S8x2048x4096.Idx → EReal) (w : S4096x4096.Idx → EReal) :
    shapeCast S8x2048x4096 (rowsTimesWeights (shapeCast S16384x4096 x shapeCasts_S8x2048x4096_S16384x4096) w)
        shapeCasts_S16384x4096_S8x2048x4096 = linear x w := by
  funext i
  obtain ⟨b, s, o, rfl⟩ : ∃ (b : Fin 8) (s : Fin 2048) (o : Fin 4096), i = ix3 b s o := ⟨i 0, i 1, i 2, eq_ix3 i⟩
  have hb := b.isLt
  have hs := s.isLt
  have ho := o.isLt
  refine (shapeCast_apply _ _ (ix3 b s o) (ix2 (⟨b.val * 2048 + s.val, by omega⟩ : Fin 16384) o)
    (by rw [Shape.rowMajor_val_two, Shape.rowMajor_val_three]
        show (b.val * 2048 + s.val) * 4096 + o.val = (b.val * 2048 + s.val) * 4096 + o.val
        rfl)).trans ?_
  rw [linear_apply]
  unfold rowsTimesWeights
  refine Finset.sum_congr rfl fun k _ => ?_
  have hk := k.isLt
  refine congrArg₂ (· * ·) ?_ rfl
  exact shapeCast_apply _ _ _ (ix3 b s k)
    (by rw [Shape.rowMajor_val_two, Shape.rowMajor_val_three]
        show (b.val * 2048 + s.val) * 4096 + k.val = (b.val * 2048 + s.val) * 4096 + k.val
        rfl)

/-- The line after the region unflattens the region's result array. -/
theorem tail_eq (c : Dev nD) :
    Pipeline.afterTail₀ cfgs (dats m) 0 (V0 m) [hostOps1] c main_v12
      = shapeCast S8x2048x4096 ((dats m 0 c).arrAt 2 cfg0.N) shapeCasts_S16384x4096_S8x2048x4096 := by
  unfold Pipeline.afterTail₀
  show StableHlo.after hostOps1 _ (Proc.devRef .tc main_v12) = _
  after_results
  exact congrArg (fun a => shapeCast S8x2048x4096 a shapeCasts_S16384x4096_S8x2048x4096)
    (Pipeline.withArrays_arr spec0 launch0.win.arr_inj c _ _ 2)

/-- What the program returns is the linear layer of the activations and of the weight matrix it built. -/
theorem result_linear (c : Dev nD) :
    Pipeline.afterTail₀ cfgs (dats m) 0 (V0 m) [hostOps1] c main_v12
      = linear (m ((c : Thread nD τ).loc main_arg0))
          (weights (F := Ideal) (m ((c : Thread nD τ).loc main_arg1)) (m ((c : Thread nD τ).loc main_arg2)) (m ((c : Thread nD τ).loc main_arg3))) := by
  rw [tail_eq, product_array, flattened_eq, weights_eq]
  exact unflatten_product _ _

/-- The run, read: every weakly fair execution terminates with the result at the linear layer and the arguments
    unchanged. -/
theorem run : θ_run defs (onTc (τ := τ) (main (F := Ideal))) ⟨m, fun _ => 0, ρ⟩ fun r => ∀ c : Dev nD,
      r.2.mem ((c.tc : Thread nD τ).loc main_v12)
        = linear (m ((c : Thread nD τ).loc main_arg0))
            (weights (F := Ideal) (m ((c : Thread nD τ).loc main_arg1)) (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (result_linear m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.ReferenceLinear.lean ====
/-
  The reference is the linear layer. It builds the weight matrix on the host (a table lookup scaled row by row) and
  contracts the activations' last axis with the weights' last axis in one product: entry (b, s, o) of its result is
  Σ_k x(b, s, k) · w(o, k) with w the matrix it built.
-/
import proofs.«101652_j15573551415405_2_alg».proof.Proof.Gen.ReferenceIdeal.Read
import proofs.«101652_j15573551415405_2_alg».proof.Proof.Linear

noncomputable section

namespace Cert.ReferenceIdeal.Hand

open Cert.ReferenceIdeal Cert.ReferenceIdeal.Read Idealize.ShloMosaic Idealize.ShloMosaic.ValueIdx Cert.Linear

/-- The reference's result is the linear layer of the activations and of the weight matrix it built. -/
theorem result_linear (x : (⟨S8x2048x4096, .f32⟩ : BufTy).Contents (Elt Ideal)) (sc : (⟨S4096x1, .f32⟩ : BufTy).Contents (Elt Ideal))
    (lut : (⟨S256, .f32⟩ : BufTy).Contents (Elt Ideal)) (idx : (⟨S4096x4096, .i32⟩ : BufTy).Contents (Elt Ideal)) :
    val_main_v9 (F := Ideal) x sc lut idx = linear x (val_main_v8 (F := Ideal) sc lut idx) := by
  funext i
  rw [val_main_v9_apply]
  unfold linear
  refine Finset.sum_congr rfl fun k _ => ?_
  refine congrArg₂ (· * ·) (congrArg _ ?_) (congrArg _ ?_)
  · exact funext fun a => Fin.ext (by
      match a with
      | ⟨0, _⟩ => rfl
      | ⟨1, _⟩ => rfl
      | ⟨2, _⟩ => rfl)
  · exact funext fun a => Fin.ext (by
      match a with
      | ⟨0, _⟩ => rfl
      | ⟨1, _⟩ => rfl)

end Cert.ReferenceIdeal.Hand

end
-- ==== Proof.lean ====
/-
  A codebook-quantized linear layer: out = x · Wᵀ with W(o, k) = table[code(o, k)] · scale(o), for activations x over
  [8, 2048, 4096], codes over [4096, 4096], a 256-entry table and a scale column [4096, 1].

  Both programs build W on the host with the same lines (the lookup, a negative code counted from the table's end, each
  row times its scale). The kernel's program then narrows W and the activations to a shorter float format — the identity
  on the extended reals —, flattens the activations to [16384, 4096], multiplies 256 rows at a time against the whole
  of W, contracting the last axis of both, and unflattens the result; the reference contracts the activations' last
  axis with W's last axis in one product. On the extended reals both results are, entry by entry,
      out(b, s, o) = Σ_k x(b, s, k) · W(o, k),
  the same finite sum of the same products (`Cert.Linear.linear`): the kernel's side because row 2048 b + s of the
  flattened activations is row (b, s) and the 64 row blocks tile the product (`Cert.KernelIdeal.Hand.run`), the
  reference's by reading its product at an entry (`Cert.ReferenceIdeal.Hand.result_linear`). No law of arithmetic beyond
  reading the two sums is used, so finiteness of the inputs plays no part. The three frames are the generated ones
  (the reference's is its generated run with the result dropped), and the idealization rewrote nothing.
-/
import proofs.«101652_j15573551415405_2_alg».proof.Defs
import proofs.«101652_j15573551415405_2_alg».proof.Proof.Gen.Kernel
import proofs.«101652_j15573551415405_2_alg».proof.Proof.Gen.Kernel.Frame
import proofs.«101652_j15573551415405_2_alg».proof.Proof.Gen.KernelIdeal
import proofs.«101652_j15573551415405_2_alg».proof.Proof.Gen.KernelIdeal.Frame
import proofs.«101652_j15573551415405_2_alg».proof.Proof.Gen.ReferenceIdeal
import proofs.«101652_j15573551415405_2_alg».proof.Proof.Gen.ReferenceIdeal.Run
import proofs.«101652_j15573551415405_2_alg».proof.Proof.Gen.ReferenceIdeal.Read
import proofs.«101652_j15573551415405_2_alg».proof.Proof.Gen.Pre_finite_inputs
import proofs.«101652_j15573551415405_2_alg».proof.Proof.KernelLinear
import proofs.«101652_j15573551415405_2_alg».proof.Proof.ReferenceLinear

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs build the weight matrix with the same host lines. -/
theorem weights_same (sc : (⟨Cert.ReferenceIdeal.S4096x1, .f32⟩ : BufTy).Contents (Elt Ideal))
    (lut : (⟨Cert.ReferenceIdeal.S256, .f32⟩ : BufTy).Contents (Elt Ideal))
    (idx : (⟨Cert.ReferenceIdeal.S4096x4096, .i32⟩ : BufTy).Contents (Elt Ideal)) :
    Cert.ReferenceIdeal.Read.val_main_v8 (F := Ideal) sc lut idx = Cert.KernelIdeal.Hand.weights (F := Ideal) sc lut idx := rfl

/-- Both results are the linear layer of the same activations and the same weight matrix. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.Hand.result_linear, weights_same,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
